-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2x64 .f32) (main_arg7 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg6
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S2x64 .f32) (main_arg6 : FVec F S2x64 .f32) (main_arg7 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S1x2 : Shape := ⟨2, ![1, 2]⟩
abbrev S50000x2 : Shape := ⟨2, ![50000, 2]⟩
abbrev S5000x2 : Shape := ⟨2, ![5000, 2]⟩
abbrev S64x2 : Shape := ⟨2, ![64, 2]⟩

abbrev nBuf : Space → Nat
  | .hbm => 59
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2x64, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S1x2, .f32⟩
  | .hbm, ⟨58, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S2x64, .f32⟩
  | .local _ .vmem, ⟨14, _⟩ => ⟨S2x64, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2_S1x2 : S2.ShapeCasts S1x2
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x64.size a ≤ S2x64.size a
  hwx1_2 : ∀ i : grid1.Coords, EltTy.bits .f32 = 32 ∨ (Rect.block (s := S2x64) S2x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64.size a ≤ S2x64.size a
  hwx1_3 : ∀ i : grid1.Coords, EltTy.bits .f32 = 32 ∨ (Rect.block (s := S2x64) S2x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S50000x2.size a
  hwx1_5 : ∀ i : grid1.Coords, EltTy.bits .f32 = 32 ∨ (Rect.block (s := S50000x2) S5000x2.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S2x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S64x2 : Shape := ⟨2, ![64, 2]⟩
abbrev S50000x2 : Shape := ⟨2, ![50000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S2x64, .f32⟩
  | .hbm, ⟨6, _⟩ => ⟨S2x64, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S64x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S64x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S64x2, .f32⟩
  | .hbm, ⟨74, _⟩ => ⟨S50000x2, .f32⟩
  | .hbm, ⟨75, _⟩ => ⟨S1x2, .f32⟩
  | .hbm, ⟨76, _⟩ => ⟨S50000x2, .f32⟩
  | .hbm, ⟨77, _⟩ => ⟨S50000x2, .f32⟩
  | .hbm, ⟨78, _⟩ => ⟨S64x2, .f32⟩
  | .hbm, ⟨79, _⟩ => ⟨S50000x2, .f32⟩
  | .hbm, ⟨80, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S2x64_S64x2_1_0 : S2x64.Transposes [1, 0] S64x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel program's run with its RESULT named.

  The program is two pipelined kernel regions between stretches of host operations. Its buffer contents at the four
  segment boundaries are a fold from the launch memory: after the first stretch, after the first region (its output
  array at what the grid's write-backs leave), after the second stretch, after the second region. Every weakly fair
  execution terminates, without a fault, in a state whose unscoped buffers hold the last boundary's contents; reading
  that state at the result buffer and at the eight argument buffers gives the post below. The arguments walk back
  through the fold to the launch memory; the result stays named as the last boundary's contents at its buffer, for the
  value lemmas to open.
-/
import proofs.«117466_j16965120819650_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.KernelHost.lean ====
/-
  What the kernel program's host operations hand to its two regions.

  From the edge list (row 0 the source node of each edge, row 1 its destination) the host forms, once, the in-degree of
  every node (a scatter-add of ones at the destinations), clamps it below by one and takes the reciprocal, kept as a
  column. For a feature array h it gathers the rows of h at the sources (a negative index wrapped by the node count),
  scatter-adds them at the destinations, and scales every row by the node's reciprocal column: `meanK h`. The first
  region is entered with meanK of the input features, the second with meanK of the first region's output.

  Gather and scatter-add are carried as they stand: nothing here opens them.
-/
import proofs.«117466_j16965120819650_1_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

abbrev Edges : Type := IVec S2x800000 32
abbrev Feat : Type := FVec Ideal S50000x64 .f32

/-- The edges' source nodes. -/
def srcRow (x1 : Edges) : IVec S800000 32 :=
  shapeCast _ (extractStridedSlice S1x800000 ![0, 0] x1 slices_S2x800000_S1x800000_0_0) shapeCasts_S1x800000_S800000
/-- The edges' destination nodes. -/
def dstRow (x1 : Edges) : IVec S800000 32 :=
  shapeCast _ (extractStridedSlice S1x800000 ![1, 0] x1 slices_S2x800000_S1x800000_1_0) shapeCasts_S1x800000_S800000
/-- The destinations as a column of scatter indices. -/
def dstCol (x1 : Edges) : IVec S800000x1 32 :=
  broadcastInDim S800000x1 ![0] bcast_S800000_S800000x1_0 (dstRow x1)
/-- The sources as a column of gather indices, a negative index wrapped by the node count. -/
def srcCol (x1 : Edges) : IVec S800000x1 32 :=
  broadcastInDim S800000x1 ![0] bcast_S800000_S800000x1_0
    (select (cmpi .slt (srcRow x1) (broadcastInDim S800000 ![] bcast_S_S800000 (constantI S_ 32 0#32)))
      (addi (srcRow x1) (broadcastInDim S800000 ![] bcast_S_S800000 (constantI S_ 32 50000#32))) (srcRow x1))
/-- Every node's in-degree: ones added at the destinations. -/
def degree (x1 : Edges) : FVec Ideal S50000 .f32 :=
  Host.scatterAdd scatter_S50000_S800000x1_S800000_n_0_0_1
    (broadcastInDim S50000 ![] bcast_S_S50000 (constant (F := Ideal) S_ .f32 0x00000000#32)) (dstCol x1)
    (broadcastInDim S800000 ![] bcast_S_S800000 (constant (F := Ideal) S_ .f32 0x3F800000#32))
/-- One at every node. -/
def onesN : FVec Ideal S50000 .f32 :=
  broadcastInDim S50000 ![] bcast_S_S50000 (constant (F := Ideal) S_ .f32 0x3F800000#32)
/-- The reciprocal of the clamped degree, as a column. -/
def invCol (x1 : Edges) : FVec Ideal S50000x1 .f32 :=
  broadcastInDim S50000x1 ![0] bcast_S50000_S50000x1_0 (Host.divf (F := Ideal) onesN (maximumf (degree x1) onesN))
/-- The rows of h at the sources, summed at the destinations. -/
def aggregate (h : Feat) (x1 : Edges) : Feat :=
  Host.scatterAdd scatter_S50000x64_S800000x1_S800000x64_1_0_0_1
    (broadcastInDim S50000x64 ![] bcast_S_S50000x64 (constant (F := Ideal) S_ .f32 0x00000000#32)) (dstCol x1)
    (Host.gather gather_S50000x64_S800000x1_S800000x64_1_0_n_n_0_1_164 h (srcCol x1))
/-- The kernel program's mean aggregation: the aggregate times the reciprocal column. -/
def meanK (h : Feat) (x1 : Edges) : Feat :=
  mulf (aggregate h x1) (broadcastInDim S50000x64 ![0, 1] bcast_S50000x1_S50000x64_0_1 (invCol x1))

variable (m : (ℓ : Loc nD τ sig) → Buf (Elt Ideal) ℓ) (ρ : Dev nD → PrngReg)

/-! ## The first region's entry contents -/

set_option maxHeartbeats 8000000 in  -- thirty host operations feed this buffer: one pass over them exceeds the default budget
theorem V1_mean (c : Dev nD) :
    V1 m ρ c main_v24 = meanK (m ((c : Thread nD τ).loc main_arg0)) (m ((c : Thread nD τ).loc main_arg1)) := by
  show StableHlo.after hostOps0 (W0 m ρ c) (Proc.devRef .tc main_v24) = _
  dsimp only [hostOps0]
  after_results_simp
  rfl

theorem V1_bias (c : Dev nD) :
    V1 m ρ c main_v25 = shapeCast _ (m ((c : Thread nD τ).loc main_arg4)) shapeCasts_S64_S1x64 := by
  show StableHlo.after hostOps0 (W0 m ρ c) (Proc.devRef .tc main_v25) = _
  dsimp only [hostOps0]
  after_results
  rfl

theorem V1_arg0 (c : Dev nD) : V1 m ρ c main_arg0 = m ((c : Thread nD τ).loc main_arg0) := by
  show StableHlo.after hostOps0 (W0 m ρ c) (Proc.devRef .tc main_arg0) = _
  dsimp only [hostOps0]
  after_results

theorem V1_arg2 (c : Dev nD) : V1 m ρ c main_arg2 = m ((c : Thread nD τ).loc main_arg2) := by
  show StableHlo.after hostOps0 (W0 m ρ c) (Proc.devRef .tc main_arg2) = _
  dsimp only [hostOps0]
  after_results

theorem V1_arg3 (c : Dev nD) : V1 m ρ c main_arg3 = m ((c : Thread nD τ).loc main_arg3) := by
  show StableHlo.after hostOps0 (W0 m ρ c) (Proc.devRef .tc main_arg3) = _
  dsimp only [hostOps0]
  after_results

/-! ## What the second stretch reads: kept from the first stretch, untouched by the first region -/

theorem W1_src (c : Dev nD) : W1 m ρ c (Proc.devRef .tc main_v1) = srcRow (m ((c : Thread nD τ).loc main_arg1)) := by
  show StableHlo.after hostOps0 (W0 m ρ c) (Proc.devRef .tc main_v1) = _
  dsimp only [hostOps0]
  after_results <;> rfl

theorem W1_dst (c : Dev nD) : W1 m ρ c (Proc.devRef .tc main_v3) = dstRow (m ((c : Thread nD τ).loc main_arg1)) := by
  show StableHlo.after hostOps0 (W0 m ρ c) (Proc.devRef .tc main_v3) = _
  dsimp only [hostOps0]
  after_results <;> rfl

set_option maxHeartbeats 4000000 in  -- a dozen host operations feed this buffer
theorem W1_inv (c : Dev nD) : W1 m ρ c (Proc.devRef .tc main_v12) = invCol (m ((c : Thread nD τ).loc main_arg1)) := by
  show StableHlo.after hostOps0 (W0 m ρ c) (Proc.devRef .tc main_v12) = _
  dsimp only [hostOps0]
  after_results_simp <;> rfl

theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results <;> rfl

theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results <;> rfl

theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results <;> rfl

theorem W2_src (c : Dev nD) : W2 m ρ c (Proc.devRef .tc main_v1) = srcRow (m ((c : Thread nD τ).loc main_arg1)) :=
  (W2_of_ne m ρ c main_v1 (by decide)).trans (W1_src m ρ c)
theorem W2_dst (c : Dev nD) : W2 m ρ c (Proc.devRef .tc main_v3) = dstRow (m ((c : Thread nD τ).loc main_arg1)) :=
  (W2_of_ne m ρ c main_v3 (by decide)).trans (W1_dst m ρ c)
theorem W2_inv (c : Dev nD) : W2 m ρ c (Proc.devRef .tc main_v12) = invCol (m ((c : Thread nD τ).loc main_arg1)) :=
  (W2_of_ne m ρ c main_v12 (by decide)).trans (W1_inv m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## The second region's entry contents -/

set_option maxHeartbeats 4000000 in  -- fifteen host operations feed this buffer
/-- The second region's mean features: the same aggregation, of the first region's output. -/
theorem V3_mean (c : Dev nD) :
    V3 m ρ c main_v38 = meanK (V2 m ρ c main_v26) (m ((c : Thread nD τ).loc main_arg1)) := by
  show StableHlo.after hostOps1 (W2 m ρ c) (Proc.devRef .tc main_v38) = _
  dsimp only [hostOps1]
  after_results_simp
  rw [W2_src m ρ c, W2_dst m ρ c, W2_inv m ρ c]
  rfl

/-- Its root features are the first region's output, which the second stretch does not write. -/
theorem V3_root (c : Dev nD) : V3 m ρ c main_v26 = V2 m ρ c main_v26 := by
  show StableHlo.after hostOps1 (W2 m ρ c) (Proc.devRef .tc main_v26) = _
  dsimp only [hostOps1]
  after_results <;> rfl

theorem V3_arg5 (c : Dev nD) : V3 m ρ c main_arg5 = m ((c : Thread nD τ).loc main_arg5) := by
  show StableHlo.after hostOps1 (W2 m ρ c) (Proc.devRef .tc main_arg5) = _
  dsimp only [hostOps1]
  after_results
  exact W2_arg5 m ρ c

theorem V3_arg6 (c : Dev nD) : V3 m ρ c main_arg6 = m ((c : Thread nD τ).loc main_arg6) := by
  show StableHlo.after hostOps1 (W2 m ρ c) (Proc.devRef .tc main_arg6) = _
  dsimp only [hostOps1]
  after_results
  exact W2_arg6 m ρ c

theorem V3_bias (c : Dev nD) :
    V3 m ρ c main_v39 = shapeCast _ (m ((c : Thread nD τ).loc main_arg7)) shapeCasts_S2_S1x2 := by
  show StableHlo.after hostOps1 (W2 m ρ c) (Proc.devRef .tc main_v39) = _
  dsimp only [hostOps1]
  after_results
  rw [W2_arg7 m ρ c]
  rfl

end Cert.KernelIdeal.Host

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.KernelDense.lean ====
/-
  What one grid point of each kernel region computes, entry by entry.

  A point holds a tile of 5000 nodes. From the tile's rows of the mean-aggregated features a and of the root features
  r, and the two weight matrices Wl, Wr (out × 64) and the bias row b (1 × out), the body forms
      a · Wlᵀ + r · Wrᵀ + b      (then max with 0 in the first layer).
  The operands pass through a shorter float format on their way into the matrix unit, which on the extended reals is
  the identity; the matrix unit accumulates into zero; the weight is transposed first, so entry (p, e) pairs row p of
  the features with ROW e of the weight:  Σₖ a(p,k)·Wl(e,k) + Σₖ r(p,k)·Wr(e,k) + b(0,e).
-/
import proofs.«117466_j16965120819650_1_alg».proof.Proof.Gen.KernelIdeal.Skeleton
import proofs.«117466_j16965120819650_1_alg».proof.Proof.LibColsMatmul
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.ValueIdx

/-- First layer: a tile's rows against the rows of a 64 × 64 weight (the weight transposed, then the plain product). -/
theorem rows0 (x : FVec Ideal S5000x64 .f32) (w : FVec Ideal S64x64 .f32) (p : Fin 5000) (e : Fin 64) :
    matmul dot_S5000x64_S64x64_S5000x64_1_0_0_1_n_n none (truncf .bf16 x bitsLt_bf16_f32)
      (transpose S64x64 [1, 0] (truncf .bf16 w bitsLt_bf16_f32) transposes_S64x64_p1_0_S64x64) (constant S5000x64 .f32 0x00000000#32) (ix2 p e)
    = ∑ k : Fin 64, x (ix2 p k) * w (ix2 e k) := by
  refine (Cert.ColsMatmul.cols_matmul (a := 5000) (b := 64) (n := 64) dot_S5000x64_S64x64_S5000x64_1_0_0_1_n_n_wf
    dot_S5000x64_S64x64_S5000x64_1_0_0_1_n_n rfl _ _ p e).trans ?_
  refine Finset.sum_congr rfl fun k _ => ?_
  rw [transpose_ix2_apply]; rfl

/-- Second layer: a tile's rows against the rows of a 2 × 64 weight. -/
theorem rows1 (x : FVec Ideal S5000x64 .f32) (w : FVec Ideal S2x64 .f32) (p : Fin 5000) (e : Fin 2) :
    matmul dot_S5000x64_S64x2_S5000x2_1_0_0_1_n_n none (truncf .bf16 x bitsLt_bf16_f32)
      (transpose S64x2 [1, 0] (truncf .bf16 w bitsLt_bf16_f32) transposes_S2x64_p1_0_S64x2) (constant S5000x2 .f32 0x00000000#32) (ix2 p e)
    = ∑ k : Fin 64, x (ix2 p k) * w (ix2 e k) := by
  refine (Cert.ColsMatmul.cols_matmul (a := 5000) (b := 2) (n := 64) dot_S5000x64_S64x2_S5000x2_1_0_0_1_n_n_wf
    dot_S5000x64_S64x2_S5000x2_1_0_0_1_n_n rfl _ _ p e).trans ?_
  refine Finset.sum_congr rfl fun k _ => ?_
  rw [transpose_ix2_apply]; rfl

/-- The first region's stored tile at (p, e): the dense layer's three terms, clamped below by zero. -/
theorem pay0_apply (x0 x1 : Vec Ideal S5000x64 .f32) (w2 w3 : Vec Ideal S64x64 .f32) (b : Vec Ideal S1x64 .f32) (p : Fin 5000) (e : Fin 64) :
    k0_pay1 (F := Ideal) x0 x1 w2 w3 b (ix2 p e)
      = max ((∑ k : Fin 64, x0 (ix2 p k) * w2 (ix2 e k)) + (∑ k : Fin 64, x1 (ix2 p k) * w3 (ix2 e k)) + b (ix2 (0 : Fin 1) e)) 0 := by
  unfold k0_pay1
  simp only [maximumf_apply, addf_apply, broadcast_apply]
  rw [shapeCast_self x0, rows0, rows0, shapeCast_self b, shapeCast_self b, broadcastTo_1b_ab_apply]
  show max _ (Ideal.ofBits .f32 0x00000000#32) = _
  rw [Ideal.ofBits_zero_f32]

/-- The second region's stored tile at (p, e): the dense layer's three terms. -/
theorem pay1_apply (x0 x1 : Vec Ideal S5000x64 .f32) (w2 w3 : Vec Ideal S2x64 .f32) (b : Vec Ideal S1x2 .f32) (p : Fin 5000) (e : Fin 2) :
    k1_pay1 (F := Ideal) x0 x1 w2 w3 b (ix2 p e)
      = (∑ k : Fin 64, x0 (ix2 p k) * w2 (ix2 e k)) + (∑ k : Fin 64, x1 (ix2 p k) * w3 (ix2 e k)) + b (ix2 (0 : Fin 1) e) := by
  unfold k1_pay1
  simp only [addf_apply]
  rw [shapeCast_self x0, shapeCast_self x1, rows1, rows1, shapeCast_self b, shapeCast_self b, broadcastTo_1b_ab_apply]

end Cert.KernelIdeal.Dense

end
-- ==== Proof.Tiles0.lean ====
/-
  The first region's output array, whole.

  The grid has ten points; point t stages rows 5000·t … 5000·t + 4999 of the mean-aggregated features and of the root
  features, the two weights and the bias row whole, and writes back rows 5000·t … of the output. What it writes is the
  dense layer of those rows, so every written tile is a restriction of ONE function of the arrays the region finds,
  `tile0`; the ten tiles cover all 50000 rows (row r is in tile r / 5000), hence the output array ends as that function.
-/
import proofs.«117466_j16965120819650_1_alg».proof.Proof.Gen.KernelIdeal.Frame
import proofs.«117466_j16965120819650_1_alg».proof.Proof.KernelDense
import Idealize.ShloMosaic.Lib.Pipeline.Value
import Idealize.ShloMosaic.Lib.ValueIdx

set_option maxRecDepth 16384

noncomputable section

namespace Cert.KernelIdeal.Tiles0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The stored tile at any index of the tile. -/
theorem pay_at (x0 x1 : Vec Ideal S5000x64 .f32) (w2 w3 : Vec Ideal S64x64 .f32) (b : Vec Ideal S1x64 .f32) (j : S5000x64.Idx) :
    k0_pay1 (F := Ideal) x0 x1 w2 w3 b j
      = max ((∑ k : Fin 64, x0 (ix2 (j 0) k) * w2 (ix2 (j 1) k)) + (∑ k : Fin 64, x1 (ix2 (j 0) k) * w3 (ix2 (j 1) k)) + b (ix2 (0 : Fin 1) (j 1))) 0 :=
  (congrArg (k0_pay1 (F := Ideal) x0 x1 w2 w3 b) (eq_ix2 j)).trans (Dense.pay0_apply x0 x1 w2 w3 b (j 0) (j 1))

/-- The first layer in the kernel's grouping, as a function of whole arrays: the aggregate term, the root term, then the bias row. -/
def tile0 (a x : S50000x64.Idx → EReal) (Wl Wr : S64x64.Idx → EReal) (b : S1x64.Idx → EReal) : S50000x64.Idx → EReal := fun i =>
  max ((∑ k : Fin 64, a (ix2 (i 0) k) * Wl (ix2 (i 1) k)) + (∑ k : Fin 64, x (ix2 (i 0) k) * Wr (ix2 (i 1) k)) + b (ix2 (0 : Fin 1) (i 1))) 0

/-- A tile computed from rows T·5000 … of the feature arrays and the whole weights is the tile of `tile0` there. -/
theorem tile_point (A X : S50000x64.Idx → EReal) (Wl Wr : S64x64.Idx → EReal) (B : S1x64.Idx → EReal)
    (x0 x1 : S5000x64.Idx → EReal) (w2 w3 : S64x64.Idx → EReal) (b : S1x64.Idx → EReal) (T : ℕ)
    (h0 : ∀ (p : Fin 5000) (k : Fin 64) (P : Fin 50000), P.val = T * 5000 + p.val → x0 (ix2 p k) = A (ix2 P k))
    (h1 : ∀ (p : Fin 5000) (k : Fin 64) (P : Fin 50000), P.val = T * 5000 + p.val → x1 (ix2 p k) = X (ix2 P k))
    (h2 : ∀ (e E k : Fin 64), E.val = e.val → w2 (ix2 e k) = Wl (ix2 E k))
    (h3 : ∀ (e E k : Fin 64), E.val = e.val → w3 (ix2 e k) = Wr (ix2 E k))
    (h4 : ∀ (e E : Fin 64), E.val = e.val → b (ix2 (0 : Fin 1) e) = B (ix2 (0 : Fin 1) E))
    (j : S5000x64.Idx) (i : S50000x64.Idx) (hi0 : (i 0).val = T * 5000 + (j 0).val) (hi1 : (i 1).val = (j 1).val) :
    max ((∑ k : Fin 64, x0 (ix2 (j 0) k) * w2 (ix2 (j 1) k)) + (∑ k : Fin 64, x1 (ix2 (j 0) k) * w3 (ix2 (j 1) k)) + b (ix2 (0 : Fin 1) (j 1))) 0
      = tile0 A X Wl Wr B i := by
  unfold tile0
  refine congrArg (fun z => max z 0) ?_
  refine congrArg₂ (· + ·) (congrArg₂ (· + ·) (Finset.sum_congr rfl fun k _ => ?_) (Finset.sum_congr rfl fun k _ => ?_)) ?_
  · exact congrArg₂ (· * ·) (h0 (j 0) k (i 0) hi0) (h2 (j 1) (i 1) k hi1)
  · exact congrArg₂ (· * ·) (h1 (j 0) k (i 0) hi0) (h3 (j 1) (i 1) k hi1)
  · exact h4 (j 1) (i 1) hi1

/-- The printed index maps over the grid: the feature and output windows move with the point, the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The mean-feature window's tile at point t is rows t·5000 … of its array. -/
theorem blk_mean (c : Dev nD) (t : Fin cfg0.N) (p : Fin 5000) (k : Fin 64) (P : Fin 50000) (hP : P.val = t.val * 5000 + p.val) :
    iblk0 V c 0 t (ix2 p k) = V c main_v24 (ix2 P k) := by
  show V c main_v24 (((cfg0.win 0).blk t).view.emb (ix2 p k)) = _
  obtain ⟨f0, f1, -⟩ := idx_facts t
  refine congrArg _ (funext fun a => Fin.ext ?_)
  match a with
  | ⟨0, _⟩ => show win0_0.index t (0 : Fin 2) * 5000 + 1 * p.val = P.val; rw [f0, hP]; omega
  | ⟨1, _⟩ => show win0_0.index t (1 : Fin 2) * 64 + 1 * k.val = k.val; rw [f1]; omega

/-- The root-feature window's tile at point t is rows t·5000 … of its array. -/
theorem blk_root (c : Dev nD) (t : Fin cfg0.N) (p : Fin 5000) (k : Fin 64) (P : Fin 50000) (hP : P.val = t.val * 5000 + p.val) :
    iblk0 V c 1 t (ix2 p k) = V c main_arg0 (ix2 P k) := by
  show V c main_arg0 (((cfg0.win 1).blk t).view.emb (ix2 p k)) = _
  obtain ⟨-, -, f0, f1, -⟩ := idx_facts t
  refine congrArg _ (funext fun a => Fin.ext ?_)
  match a with
  | ⟨0, _⟩ => show win0_1.index t (0 : Fin 2) * 5000 + 1 * p.val = P.val; rw [f0, hP]; omega
  | ⟨1, _⟩ => show win0_1.index t (1 : Fin 2) * 64 + 1 * k.val = k.val; rw [f1]; omega

/-- The two weight windows and the bias window stage their arrays whole at every point. -/
theorem blk_wl (c : Dev nD) (t : Fin cfg0.N) (e E k : Fin 64) (hE : E.val = e.val) :
    iblk0 V c 2 t (ix2 e k) = V c main_arg2 (ix2 E k) := by
  show V c main_arg2 (((cfg0.win 2).blk t).view.emb (ix2 e k)) = _
  obtain ⟨-, -, -, -, f0, f1, -⟩ := idx_facts t
  refine congrArg _ (funext fun a => Fin.ext ?_)
  match a with
  | ⟨0, _⟩ => show win0_2.index t (0 : Fin 2) * 64 + 1 * e.val = E.val; rw [f0, hE]; omega
  | ⟨1, _⟩ => show win0_2.index t (1 : Fin 2) * 64 + 1 * k.val = k.val; rw [f1]; omega

theorem blk_wr (c : Dev nD) (t : Fin cfg0.N) (e E k : Fin 64) (hE : E.val = e.val) :
    iblk0 V c 3 t (ix2 e k) = V c main_arg3 (ix2 E k) := by
  show V c main_arg3 (((cfg0.win 3).blk t).view.emb (ix2 e k)) = _
  obtain ⟨-, -, -, -, -, -, f0, f1, -⟩ := idx_facts t
  refine congrArg _ (funext fun a => Fin.ext ?_)
  match a with
  | ⟨0, _⟩ => show win0_3.index t (0 : Fin 2) * 64 + 1 * e.val = E.val; rw [f0, hE]; omega
  | ⟨1, _⟩ => show win0_3.index t (1 : Fin 2) * 64 + 1 * k.val = k.val; rw [f1]; omega

theorem blk_bias (c : Dev nD) (t : Fin cfg0.N) (e E : Fin 64) (hE : E.val = e.val) :
    iblk0 V c 4 t (ix2 (0 : Fin 1) e) = V c main_v25 (ix2 (0 : Fin 1) E) := by
  show V c main_v25 (((cfg0.win 4).blk t).view.emb (ix2 (0 : Fin 1) e)) = _
  obtain ⟨-, -, -, -, -, -, -, -, f0, f1, -⟩ := idx_facts t
  refine congrArg _ (funext fun a => Fin.ext ?_)
  match a with
  | ⟨0, _⟩ => show win0_4.index t (0 : Fin 2) * 1 + 1 * 0 = 0; rw [f0]
  | ⟨1, _⟩ => show win0_4.index t (1 : Fin 2) * 64 + 1 * e.val = E.val; rw [f1, hE]; omega

/-- WHAT POINT t WRITES BACK is tile t of `tile0` of the arrays as the region finds them. -/
theorem flushed_eq (c : Dev nD) (t : Fin cfg0.N) :
    (dat0 V c).flushed 5 t = ((cfg0.win 5).blk t).view.read (Elt Ideal)
      (tile0 (V c main_v24) (V c main_arg0) (V c main_arg2) (V c main_arg3) (V c main_v25)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets, View.ld_unit_zero (S := S1x64) zero_offsets]
  funext j
  refine (pay_at _ _ _ _ _ j).trans ?_
  obtain ⟨-, -, -, -, -, -, -, -, -, -, f0, f1⟩ := idx_facts t
  exact tile_point (V c main_v24) (V c main_arg0) (V c main_arg2) (V c main_arg3) (V c main_v25)
    (iblk0 V c 0 t) (iblk0 V c 1 t) (iblk0 V c 2 t) (iblk0 V c 3 t) (iblk0 V c 4 t) t.val
    (blk_mean V c t) (blk_root V c t) (blk_wl V c t) (blk_wr V c t) (blk_bias V c t) j (((cfg0.win 5).blk t).view.emb j)
    (by show win0_5.index t (0 : Fin 2) * 5000 + 1 * (j 0).val = _; rw [f0]; omega)
    (by show win0_5.index t (1 : Fin 2) * 64 + 1 * (j 1).val = _; rw [f1]; omega)

/-- An index of the output array is in point t's tile iff each coordinate is in the tile's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Every row is in some point's tile: row r in tile r / 5000. -/
theorem cover (i : S50000x64.Idx) : ∃ t : Fin cfg0.N, (cfg0.win 5).flush t = true ∧ i ∈ ((cfg0.win 5).blk t).view.set := by
  have hN : cfg0.N = 10 := N_0
  have hi0 : (i 0).val < 50000 := (i 0).isLt
  have hi1 : (i 1).val < 64 := (i 1).isLt
  have ht : (i 0).val / 5000 < cfg0.N := by rw [hN]; omega
  refine ⟨⟨(i 0).val / 5000, ht⟩, flush0_5 _, ?_⟩
  rw [mem_blk]
  obtain ⟨-, -, -, -, -, -, -, -, -, -, f0, f1⟩ := idx_facts ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [f1]; omega

/-- THE OUTPUT ARRAY after the region: `tile0` of the arrays the region finds. -/
theorem final (c : Dev nD) :
    (dat0 V c).arrAt 5 cfg0.N = tile0 (V c main_v24) (V c main_arg0) (V c main_arg2) (V c main_arg3) (V c main_v25) :=
  (dat0 V c).arrAt_eq_of_cover 5 _ (fun t _ => flushed_eq V c t) cover

end Cert.KernelIdeal.Tiles0

end
-- ==== Proof.Tiles1.lean ====
/-
  The second region's output array, whole.

  Again ten points; point t stages rows 5000·t … 5000·t + 4999 of the second mean-aggregated features and of the hidden
  activations, the two 2 × 64 weights and the 1 × 2 bias row whole, and writes back rows 5000·t … of the two-column
  result. Every written tile is a restriction of ONE function of the arrays the region finds, `tile1` (the second
  dense layer, no rectifier); the ten tiles cover all 50000 rows, hence the result array ends as that function.
-/
import proofs.«117466_j16965120819650_1_alg».proof.Proof.Gen.KernelIdeal.Frame
import proofs.«117466_j16965120819650_1_alg».proof.Proof.KernelDense
import Idealize.ShloMosaic.Lib.Pipeline.Value
import Idealize.ShloMosaic.Lib.ValueIdx

set_option maxRecDepth 16384

noncomputable section

namespace Cert.KernelIdeal.Tiles1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The stored tile at any index of the two-column tile. -/
theorem pay_at (x0 x1 : Vec Ideal S5000x64 .f32) (w2 w3 : Vec Ideal S2x64 .f32) (b : Vec Ideal S1x2 .f32) (j : S5000x2.Idx) :
    k1_pay1 (F := Ideal) x0 x1 w2 w3 b j
      = (∑ k : Fin 64, x0 (ix2 (j 0) k) * w2 (ix2 (j 1) k)) + (∑ k : Fin 64, x1 (ix2 (j 0) k) * w3 (ix2 (j 1) k)) + b (ix2 (0 : Fin 1) (j 1)) :=
  (congrArg (k1_pay1 (F := Ideal) x0 x1 w2 w3 b) (eq_ix2 j)).trans (Dense.pay1_apply x0 x1 w2 w3 b (j 0) (j 1))

/-- The second layer in the kernel's grouping, as a function of whole arrays: the aggregate term, the root term, then the bias row. -/
def tile1 (a x : S50000x64.Idx → EReal) (Wl Wr : S2x64.Idx → EReal) (b : S1x2.Idx → EReal) : S50000x2.Idx → EReal := fun i =>
  (∑ k : Fin 64, a (ix2 (i 0) k) * Wl (ix2 (i 1) k)) + (∑ k : Fin 64, x (ix2 (i 0) k) * Wr (ix2 (i 1) k)) + b (ix2 (0 : Fin 1) (i 1))

/-- A tile computed from rows T·5000 … of the feature arrays and the whole weights is the tile of `tile1` there. -/
theorem tile_point (A X : S50000x64.Idx → EReal) (Wl Wr : S2x64.Idx → EReal) (B : S1x2.Idx → EReal)
    (x0 x1 : S5000x64.Idx → EReal) (w2 w3 : S2x64.Idx → EReal) (b : S1x2.Idx → EReal) (T : ℕ)
    (h0 : ∀ (p : Fin 5000) (k : Fin 64) (P : Fin 50000), P.val = T * 5000 + p.val → x0 (ix2 p k) = A (ix2 P k))
    (h1 : ∀ (p : Fin 5000) (k : Fin 64) (P : Fin 50000), P.val = T * 5000 + p.val → x1 (ix2 p k) = X (ix2 P k))
    (h2 : ∀ (e E : Fin 2) (k : Fin 64), E.val = e.val → w2 (ix2 e k) = Wl (ix2 E k))
    (h3 : ∀ (e E : Fin 2) (k : Fin 64), E.val = e.val → w3 (ix2 e k) = Wr (ix2 E k))
    (h4 : ∀ (e E : Fin 2), E.val = e.val → b (ix2 (0 : Fin 1) e) = B (ix2 (0 : Fin 1) E))
    (j : S5000x2.Idx) (i : S50000x2.Idx) (hi0 : (i 0).val = T * 5000 + (j 0).val) (hi1 : (i 1).val = (j 1).val) :
    (∑ k : Fin 64, x0 (ix2 (j 0) k) * w2 (ix2 (j 1) k)) + (∑ k : Fin 64, x1 (ix2 (j 0) k) * w3 (ix2 (j 1) k)) + b (ix2 (0 : Fin 1) (j 1))
      = tile1 A X Wl Wr B i := by
  unfold tile1
  refine congrArg₂ (· + ·) (congrArg₂ (· + ·) (Finset.sum_congr rfl fun k _ => ?_) (Finset.sum_congr rfl fun k _ => ?_)) ?_
  · exact congrArg₂ (· * ·) (h0 (j 0) k (i 0) hi0) (h2 (j 1) (i 1) k hi1)
  · exact congrArg₂ (· * ·) (h1 (j 0) k (i 0) hi0) (h3 (j 1) (i 1) k hi1)
  · exact h4 (j 1) (i 1) hi1

/-- The printed index maps over the grid: the feature and output windows move with the point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean-feature window's tile at point t is rows t·5000 … of its array. -/
theorem blk_mean (c : Dev nD) (t : Fin cfg1.N) (p : Fin 5000) (k : Fin 64) (P : Fin 50000) (hP : P.val = t.val * 5000 + p.val) :
    iblk1 V c 0 t (ix2 p k) = V c main_v38 (ix2 P k) := by
  show V c main_v38 (((cfg1.win 0).blk t).view.emb (ix2 p k)) = _
  obtain ⟨f0, f1, -⟩ := idx_facts t
  refine congrArg _ (funext fun a => Fin.ext ?_)
  match a with
  | ⟨0, _⟩ => show win1_0.index t (0 : Fin 2) * 5000 + 1 * p.val = P.val; rw [f0, hP]; omega
  | ⟨1, _⟩ => show win1_0.index t (1 : Fin 2) * 64 + 1 * k.val = k.val; rw [f1]; omega

/-- The root-feature window's tile at point t is rows t·5000 … of its array. -/
theorem blk_root (c : Dev nD) (t : Fin cfg1.N) (p : Fin 5000) (k : Fin 64) (P : Fin 50000) (hP : P.val = t.val * 5000 + p.val) :
    iblk1 V c 1 t (ix2 p k) = V c main_v26 (ix2 P k) := by
  show V c main_v26 (((cfg1.win 1).blk t).view.emb (ix2 p k)) = _
  obtain ⟨-, -, f0, f1, -⟩ := idx_facts t
  refine congrArg _ (funext fun a => Fin.ext ?_)
  match a with
  | ⟨0, _⟩ => show win1_1.index t (0 : Fin 2) * 5000 + 1 * p.val = P.val; rw [f0, hP]; omega
  | ⟨1, _⟩ => show win1_1.index t (1 : Fin 2) * 64 + 1 * k.val = k.val; rw [f1]; omega

/-- The two weight windows and the bias window stage their arrays whole at every point. -/
theorem blk_wl (c : Dev nD) (t : Fin cfg1.N) (e E : Fin 2) (k : Fin 64) (hE : E.val = e.val) :
    iblk1 V c 2 t (ix2 e k) = V c main_arg5 (ix2 E k) := by
  show V c main_arg5 (((cfg1.win 2).blk t).view.emb (ix2 e k)) = _
  obtain ⟨-, -, -, -, f0, f1, -⟩ := idx_facts t
  refine congrArg _ (funext fun a => Fin.ext ?_)
  match a with
  | ⟨0, _⟩ => show win1_2.index t (0 : Fin 2) * 2 + 1 * e.val = E.val; rw [f0, hE]; omega
  | ⟨1, _⟩ => show win1_2.index t (1 : Fin 2) * 64 + 1 * k.val = k.val; rw [f1]; omega

theorem blk_wr (c : Dev nD) (t : Fin cfg1.N) (e E : Fin 2) (k : Fin 64) (hE : E.val = e.val) :
    iblk1 V c 3 t (ix2 e k) = V c main_arg6 (ix2 E k) := by
  show V c main_arg6 (((cfg1.win 3).blk t).view.emb (ix2 e k)) = _
  obtain ⟨-, -, -, -, -, -, f0, f1, -⟩ := idx_facts t
  refine congrArg _ (funext fun a => Fin.ext ?_)
  match a with
  | ⟨0, _⟩ => show win1_3.index t (0 : Fin 2) * 2 + 1 * e.val = E.val; rw [f0, hE]; omega
  | ⟨1, _⟩ => show win1_3.index t (1 : Fin 2) * 64 + 1 * k.val = k.val; rw [f1]; omega

theorem blk_bias (c : Dev nD) (t : Fin cfg1.N) (e E : Fin 2) (hE : E.val = e.val) :
    iblk1 V c 4 t (ix2 (0 : Fin 1) e) = V c main_v39 (ix2 (0 : Fin 1) E) := by
  show V c main_v39 (((cfg1.win 4).blk t).view.emb (ix2 (0 : Fin 1) e)) = _
  obtain ⟨-, -, -, -, -, -, -, -, f0, f1, -⟩ := idx_facts t
  refine congrArg _ (funext fun a => Fin.ext ?_)
  match a with
  | ⟨0, _⟩ => show win1_4.index t (0 : Fin 2) * 1 + 1 * 0 = 0; rw [f0]
  | ⟨1, _⟩ => show win1_4.index t (1 : Fin 2) * 2 + 1 * e.val = E.val; rw [f1, hE]; omega

/-- WHAT POINT t WRITES BACK is tile t of `tile1` of the arrays as the region finds them. -/
theorem flushed_eq (c : Dev nD) (t : Fin cfg1.N) :
    (dat1 V c).flushed 5 t = ((cfg1.win 5).blk t).view.read (Elt Ideal)
      (tile1 (V c main_v38) (V c main_v26) (V c main_arg5) (V c main_arg6) (V c main_v39)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S2x64) zero_offsets, View.ld_unit_zero (S := S1x2) zero_offsets]
  funext j
  refine (pay_at _ _ _ _ _ j).trans ?_
  obtain ⟨-, -, -, -, -, -, -, -, -, -, f0, f1⟩ := idx_facts t
  exact tile_point (V c main_v38) (V c main_v26) (V c main_arg5) (V c main_arg6) (V c main_v39)
    (iblk1 V c 0 t) (iblk1 V c 1 t) (iblk1 V c 2 t) (iblk1 V c 3 t) (iblk1 V c 4 t) t.val
    (blk_mean V c t) (blk_root V c t) (blk_wl V c t) (blk_wr V c t) (blk_bias V c t) j (((cfg1.win 5).blk t).view.emb j)
    (by show win1_5.index t (0 : Fin 2) * 5000 + 1 * (j 0).val = _; rw [f0]; omega)
    (by show win1_5.index t (1 : Fin 2) * 2 + 1 * (j 1).val = _; rw [f1]; omega)

/-- An index of the output array is in point t's tile iff each coordinate is in the tile's range on its axis. -/
theorem mem_blk (t : Fin cfg1.N) (i : S50000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v40).slice (win1_5.rect t)).set ↔ _
  rw [View.set_slice_whole, Rect.mem_set_unit]
  exact Iff.rfl

/-- Every row is in some point's tile: row r in tile r / 5000. -/
theorem cover (i : S50000x2.Idx) : ∃ t : Fin cfg1.N, (cfg1.win 5).flush t = true ∧ i ∈ ((cfg1.win 5).blk t).view.set := by
  have hN : cfg1.N = 10 := N_1
  have hi0 : (i 0).val < 50000 := (i 0).isLt
  have hi1 : (i 1).val < 2 := (i 1).isLt
  have ht : (i 0).val / 5000 < cfg1.N := by rw [hN]; omega
  refine ⟨⟨(i 0).val / 5000, ht⟩, flush1_5 _, ?_⟩
  rw [mem_blk]
  obtain ⟨-, -, -, -, -, -, -, -, -, -, f0, f1⟩ := idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win1_5.index ⟨(i 0).val / 5000, ht⟩ (1 : Fin 2) * 2 ≤ (i 1).val ∧ (i 1).val < win1_5.index ⟨(i 0).val / 5000, ht⟩ (1 : Fin 2) * 2 + 2
    rw [f1]; omega

/-- THE OUTPUT ARRAY after the region: `tile1` of the arrays the region finds. -/
theorem final (c : Dev nD) :
    (dat1 V c).arrAt 5 cfg1.N = tile1 (V c main_v38) (V c main_v26) (V c main_arg5) (V c main_arg6) (V c main_v39) :=
  (dat1 V c).arrAt_eq_of_cover 5 _ (fun t _ => flushed_eq V c t) cover

end Cert.KernelIdeal.Tiles1

end
-- ==== Proof.LibReciprocal.lean ====
/-
  Reciprocal against quotient on the extended reals.

  The ideal quotient x / y is x · y⁻¹ whenever y ≠ 0 (and a signed infinity or junk at y = 0). So for a divisor that is
  not zero, multiplying by the reciprocal 1 / y and dividing by y agree for EVERY extended-real numerator — infinite
  ones included: no finiteness hypothesis. A value clamped below by one, max x 1, is at least one and so never zero;
  that covers the usual "divide by max(count, 1)" of a mean over possibly empty groups.
-/
import Idealize.ShloMosaic.PureOps.Ideal
import Idealize.ShloMosaic.Lib.IdealHost

noncomputable section

namespace Cert.Reciprocal

open Idealize.ShloMosaic

/-- Off zero, the product with the reciprocal is the quotient, for every extended real numerator. -/
theorem mul_recip (a d : EReal) (hd : d ≠ 0) : a * Ideal.div 1 d = Ideal.div a d := by
  rw [Ideal.div, Ideal.div, if_neg hd, if_neg hd, one_mul]

/-- An extended real clamped below by one is not zero. -/
theorem max_one_ne_zero (x : EReal) : max x 1 ≠ 0 :=
  ne_of_gt (lt_of_lt_of_le zero_lt_one (le_max_right x 1))

/-- The same with the one spelt as its f32 word. -/
theorem clamp_ne_zero (x : EReal) : max x (Ideal.ofBits .f32 0x3F800000#32) ≠ 0 := by
  rw [Ideal.ofBits_one_f32]; exact max_one_ne_zero x

/-- Scaling by the reciprocal of a clamped count is dividing by the clamped count (the ones spelt as f32 words). -/
theorem mul_recip_clamp (a x : EReal) :
    a * Ideal.div (Ideal.ofBits .f32 0x3F800000#32) (max x (Ideal.ofBits .f32 0x3F800000#32))
      = Ideal.div a (max x (Ideal.ofBits .f32 0x3F800000#32)) := by
  have h := mul_recip a _ (clamp_ne_zero x)
  rwa [← Ideal.ofBits_one_f32] at h

end Cert.Reciprocal

end
-- ==== Proof.SageLaws.lean ====
/-
  The extended-real facts that join the two spellings of a mean-aggregating graph layer.

  A node's in-degree d is clamped below by one before it divides the aggregate, so the divisor max d 1 is never zero;
  away from zero the quotient on the extended reals is the product with the inverse, hence multiplying an aggregate by
  the reciprocal 1 / max d 1 and dividing it by max d 1 are the same for EVERY extended real aggregate: no finiteness
  enters. The dense part adds three terms, and addition of extended reals is commutative and associative, so
  (l + r) + b and (l + b) + r agree.
-/
import proofs.«117466_j16965120819650_1_alg».proof.Proof.LibReciprocal
import Idealize.ShloMosaic.PureOps.Ideal.Laws
import Idealize.ShloMosaic.Lib.IdealHost
import Idealize.ShloMosaic.Lib.ValueIdx
import Idealize.ShloMosaic.Lib.Pipeline.Value

noncomputable section

namespace Cert.Sage

open Idealize.ShloMosaic Idealize.ShloMosaic.ValueIdx

/-- The three-term sum of a dense layer, regrouped. -/
theorem add_regroup (l r b : EReal) : l + r + b = l + b + r := add_right_comm l r b

abbrev S0 : Shape := ⟨0, ![]⟩
abbrev SN : Shape := ⟨1, ![50000]⟩
abbrev SN1 : Shape := ⟨2, ![50000, 1]⟩
abbrev SNH : Shape := ⟨2, ![50000, 64]⟩

/-- A per-node column [N] kept as [N, 1] and broadcast along the 64 features reads the node's entry. -/
theorem column_apply (z : SN.Idx → EReal)
    (h1 : SN.BroadcastsInDim SN1 (![0] : Fin 1 → Fin SN1.rank))
    (h2 : SN1.BroadcastsInDim SNH (![0, 1] : Fin 2 → Fin SNH.rank)) (i : SNH.Idx) :
    broadcastInDim SNH ![0, 1] h2 (broadcastInDim SN1 ![0] h1 z) i = z (ix1 (i 0)) := by
  rw [broadcastInDim_apply _ h2 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ h1 z (ix2 (i 0) (0 : Fin 1)) (ix1 (i 0)) (fun a => match a with
    | ⟨0, _⟩ => by show (i 0).val = if (50000 : Nat) = 1 then 0 else (i 0).val; rw [if_neg (by decide)])

/-- A scalar broadcast over the nodes reads the scalar. -/
theorem scalar_apply (h0 : S0.BroadcastsInDim SN (![] : Fin 0 → Fin SN.rank)) (b : BitVec 32) (j : SN.Idx) :
    broadcastInDim SN ![] h0 (constant (F := Ideal) S0 .f32 b) j = Ideal.ofBits .f32 b :=
  broadcastInDim_apply _ h0 _ j ix0 (fun a => a.elim0)

/-- THE MEAN, TWO WAYS: the aggregate times the broadcast reciprocal of the clamped degree is the aggregate divided by
    the broadcast clamped degree, as whole arrays, for any aggregate and any degree array. -/
theorem mean_forms (A : FVec Ideal SNH .f32) (D : FVec Ideal SN .f32)
    (h0 : S0.BroadcastsInDim SN (![] : Fin 0 → Fin SN.rank))
    (h1 : SN.BroadcastsInDim SN1 (![0] : Fin 1 → Fin SN1.rank))
    (h2 : SN1.BroadcastsInDim SNH (![0, 1] : Fin 2 → Fin SNH.rank)) :
    mulf A (broadcastInDim SNH ![0, 1] h2 (broadcastInDim SN1 ![0] h1
        (Host.divf (broadcastInDim SN ![] h0 (constant (F := Ideal) S0 .f32 0x3F800000#32))
          (maximumf D (broadcastInDim SN ![] h0 (constant (F := Ideal) S0 .f32 0x3F800000#32))))))
      = Host.divf A (broadcastInDim SNH ![0, 1] h2 (broadcastInDim SN1 ![0] h1
          (maximumf D (broadcastInDim SN ![] h0 (constant (F := Ideal) S0 .f32 0x3F800000#32))))) := by
  funext i
  show A i * _ = Ideal.div (A i) _
  rw [column_apply _ h1 h2 i, column_apply _ h1 h2 i]
  show A i * Ideal.div (broadcastInDim SN ![] h0 (constant (F := Ideal) S0 .f32 0x3F800000#32) (ix1 (i 0)))
      (max (D (ix1 (i 0))) (broadcastInDim SN ![] h0 (constant (F := Ideal) S0 .f32 0x3F800000#32) (ix1 (i 0))))
    = Ideal.div (A i) (max (D (ix1 (i 0))) (broadcastInDim SN ![] h0 (constant (F := Ideal) S0 .f32 0x3F800000#32) (ix1 (i 0))))
  rw [scalar_apply h0]
  exact Cert.Reciprocal.mul_recip_clamp _ _

/-! ## The two dense layers as functions of whole arrays

The first layer carries its rectifier, the second does not; both are stated with the reference's grouping (aggregate
term, then bias, then root term), over a mean array a, a root array, two weights whose ROWS are paired with the feature
rows, and the bias as a function of the output coordinate. -/

abbrev SHH : Shape := ⟨2, ![64, 64]⟩
abbrev SOH : Shape := ⟨2, ![2, 64]⟩
abbrev SNO : Shape := ⟨2, ![50000, 2]⟩

/-- The first layer: max (Σₖ a(p,k)·Wl(e,k) + b(e) + Σₖ x(p,k)·Wr(e,k)) 0 at (p, e). -/
def hidden (a x : SNH.Idx → EReal) (Wl Wr : SHH.Idx → EReal) (b : Fin 64 → EReal) : SNH.Idx → EReal := fun i =>
  max ((∑ k : Fin 64, a (ix2 (i 0) k) * Wl (ix2 (i 1) k)) + b (i 1) + (∑ k : Fin 64, x (ix2 (i 0) k) * Wr (ix2 (i 1) k))) 0

/-- The second layer: Σₖ a(p,k)·Wl(e,k) + b(e) + Σₖ h(p,k)·Wr(e,k) at (p, e). -/
def output (a h : SNH.Idx → EReal) (Wl Wr : SOH.Idx → EReal) (b : Fin 2 → EReal) : SNO.Idx → EReal := fun i =>
  (∑ k : Fin 64, a (ix2 (i 0) k) * Wl (ix2 (i 1) k)) + b (i 1) + (∑ k : Fin 64, h (ix2 (i 0) k) * Wr (ix2 (i 1) k))

theorem hidden_apply (a x : SNH.Idx → EReal) (Wl Wr : SHH.Idx → EReal) (b : Fin 64 → EReal) (p : Fin 50000) (e : Fin 64) :
    hidden a x Wl Wr b (ix2 p e)
      = max ((∑ k : Fin 64, a (ix2 p k) * Wl (ix2 e k)) + b e + (∑ k : Fin 64, x (ix2 p k) * Wr (ix2 e k))) 0 := rfl

theorem output_apply (a h : SNH.Idx → EReal) (Wl Wr : SOH.Idx → EReal) (b : Fin 2 → EReal) (p : Fin 50000) (e : Fin 2) :
    output a h Wl Wr b (ix2 p e)
      = (∑ k : Fin 64, a (ix2 p k) * Wl (ix2 e k)) + b e + (∑ k : Fin 64, h (ix2 p k) * Wr (ix2 e k)) := rfl

end Cert.Sage

end
-- ==== Proof.RefSide.lean ====
/-
  The reference's stages as the two dense layers.

  Read one operation at a time, the reference's hidden activations are
      max (Σₖ mean₁(p,k)·W1l(e,k) + b1(e) + Σₖ x(p,k)·W1r(e,k)) 0
  — its transposes of the weights turn "column e" into "row e" — and its result is
      Σₖ mean₂(p,k)·W2l(e,k) + b2(e) + Σₖ h(p,k)·W2r(e,k),
  where mean₁ and mean₂ are the reference's own mean-aggregation stages, left as they stand.
-/
import proofs.«117466_j16965120819650_1_alg».proof.Proof.Gen.ReferenceIdeal.Read
import proofs.«117466_j16965120819650_1_alg».proof.Proof.SageLaws

noncomputable section

namespace Cert.ReferenceIdeal.Layers

open Cert.ReferenceIdeal Cert.ReferenceIdeal.Gen Cert.ReferenceIdeal.Read Idealize.ShloMosaic Idealize.ShloMosaic.ValueIdx

/-- The reference's hidden activations are the first layer of its first mean stage. -/
theorem hidden_eq (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v31 (F := Ideal) x0 x1 x2 x3 x4
      = Cert.Sage.hidden (val_main_v22 (F := Ideal) x0 x1) x0 x2 x3 (fun e => x4 (ix1 e)) := by
  funext i
  obtain ⟨p, e, rfl⟩ : ∃ (p : Fin 50000) (e : Fin 64), i = ix2 p e := ⟨i 0, i 1, eq_ix2 i⟩
  have hl (k : Fin 64) : lidx_main_v24 (ix2 p e) k = ix2 p k :=
    funext fun a => Fin.ext (by match a with | ⟨0, _⟩ => rfl | ⟨1, _⟩ => rfl)
  have hr (k : Fin 64) : idx_main_v23 (ridx_main_v24 (ix2 p e) k) = ix2 e k :=
    funext fun a => Fin.ext (by match a with | ⟨0, _⟩ => rfl | ⟨1, _⟩ => rfl)
  have hl' (k : Fin 64) : lidx_main_v29 (ix2 p e) k = ix2 p k :=
    funext fun a => Fin.ext (by match a with | ⟨0, _⟩ => rfl | ⟨1, _⟩ => rfl)
  have hr' (k : Fin 64) : idx_main_v28 (ridx_main_v29 (ix2 p e) k) = ix2 e k :=
    funext fun a => Fin.ext (by match a with | ⟨0, _⟩ => rfl | ⟨1, _⟩ => rfl)
  have hb : idx_main_v25 (idx_main_v26 (ix2 p e)) = ix1 e :=
    funext fun a => Fin.ext (by match a with | ⟨0, _⟩ => rfl)
  rw [val_main_v31_apply, val_main_v30_apply, val_main_v27_apply, val_main_v24_apply, val_main_v29_apply,
    val_main_v26_apply, val_main_v25_apply, val_main_call0_v0_apply, val_main_call0_cst_apply, Cert.Sage.hidden_apply]
  simp only [val_main_v23_apply, val_main_v28_apply, hl, hr, hl', hr', hb, Ideal.maximumf_def, Ideal.addf_def,
    Ideal.ofBits_def, Ideal.ofBits_zero_f32]

/-- The reference's result is the second layer of its second mean stage and its hidden activations. -/
theorem output_eq (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (x5 x6 : (⟨S2x64, .f32⟩ : BufTy).Contents (Elt Ideal)) (x7 : (⟨S2, .f32⟩ : BufTy).Contents (Elt Ideal)) :
    val_main_v58 (F := Ideal) x0 x1 x2 x3 x4 x5 x6 x7
      = Cert.Sage.output (val_main_v50 (F := Ideal) x0 x1 x2 x3 x4) (val_main_v31 (F := Ideal) x0 x1 x2 x3 x4) x5 x6 (fun e => x7 (ix1 e)) := by
  funext i
  obtain ⟨p, e, rfl⟩ : ∃ (p : Fin 50000) (e : Fin 2), i = ix2 p e := ⟨i 0, i 1, eq_ix2 i⟩
  have hl (k : Fin 64) : lidx_main_v52 (ix2 p e) k = ix2 p k :=
    funext fun a => Fin.ext (by match a with | ⟨0, _⟩ => rfl | ⟨1, _⟩ => rfl)
  have hr (k : Fin 64) : idx_main_v51 (ridx_main_v52 (ix2 p e) k) = ix2 e k :=
    funext fun a => Fin.ext (by match a with | ⟨0, _⟩ => rfl | ⟨1, _⟩ => rfl)
  have hl' (k : Fin 64) : lidx_main_v57 (ix2 p e) k = ix2 p k :=
    funext fun a => Fin.ext (by match a with | ⟨0, _⟩ => rfl | ⟨1, _⟩ => rfl)
  have hr' (k : Fin 64) : idx_main_v56 (ridx_main_v57 (ix2 p e) k) = ix2 e k :=
    funext fun a => Fin.ext (by match a with | ⟨0, _⟩ => rfl | ⟨1, _⟩ => rfl)
  have hb : idx_main_v53 (idx_main_v54 (ix2 p e)) = ix1 e :=
    funext fun a => Fin.ext (by match a with | ⟨0, _⟩ => rfl)
  rw [val_main_v58_apply, val_main_v55_apply, val_main_v52_apply, val_main_v57_apply, val_main_v54_apply,
    val_main_v53_apply, Cert.Sage.output_apply]
  simp only [val_main_v51_apply, val_main_v56_apply, hl, hr, hl', hr', hb, Ideal.addf_def]

end Cert.ReferenceIdeal.Layers

end
-- ==== Proof.Bridge.lean ====
/-
  The two programs compute one function.

  Kernel side: the result buffer ends as the second dense layer (kernel's grouping) of meanK(H) and H, where H, the
  first region's output, is the first dense layer of meanK(x) and x. Reference side: its last stage is the second dense
  layer (reference's grouping) of its mean stage of H' and H', where H' is the first layer of its mean stage of x and x.
  Three facts join them: (1) meanK h = the reference's mean stage of h, for EVERY feature array h — the aggregate times
  the reciprocal of the clamped degree is the aggregate divided by the clamped degree, the clamped degree never being
  zero, and the gather / scatter-add chains are the same terms; (2) the two groupings of a three-term sum agree;
  (3) the bias row [1, d] the kernel stages is the bias vector [d] re-laid.
-/
import proofs.«117466_j16965120819650_1_alg».proof.Proof.KernelHost
import proofs.«117466_j16965120819650_1_alg».proof.Proof.Tiles0
import proofs.«117466_j16965120819650_1_alg».proof.Proof.Tiles1
import proofs.«117466_j16965120819650_1_alg».proof.Proof.RefSide
import proofs.«117466_j16965120819650_1_alg».proof.Proof.SageLaws
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Host

/-- (1) The kernel program's mean aggregation is the reference's mean stage, as functions of the feature array and the
    edge list: multiply-by-reciprocal against divide, over the same aggregate and the same clamped degree. -/
theorem mean_eq (h : FVec Ideal S50000x64 .f32) (x1 : IVec S2x800000 32) :
    meanK h x1 = Cert.ReferenceIdeal.Read.val_main_v22 (F := Ideal) h x1 :=
  (Cert.Sage.mean_forms (aggregate h x1) (degree x1) bcast_S_S50000 bcast_S50000_S50000x1_0 bcast_S50000x1_S50000x64_0_1).trans rfl

/-- The reference's second mean stage is its first mean stage applied to its hidden activations. -/
theorem mean_again (x0 : FVec Ideal S50000x64 .f32) (x1 : IVec S2x800000 32) (x2 x3 : FVec Ideal S64x64 .f32) (x4 : FVec Ideal S64 .f32) :
    Cert.ReferenceIdeal.Read.val_main_v50 (F := Ideal) x0 x1 x2 x3 x4
      = Cert.ReferenceIdeal.Read.val_main_v22 (F := Ideal) (Cert.ReferenceIdeal.Read.val_main_v31 (F := Ideal) x0 x1 x2 x3 x4) x1 := rfl

/-- (2)+(3) for the first layer. -/
theorem layer0_eq (a x : FVec Ideal S50000x64 .f32) (Wl Wr : FVec Ideal S64x64 .f32) (b : FVec Ideal S64 .f32) :
    Tiles0.tile0 a x Wl Wr (shapeCast S1x64 b shapeCasts_S64_S1x64) = Cert.Sage.hidden a x Wl Wr (fun e => b (ix1 e)) := by
  funext i
  have hb : shapeCast S1x64 b shapeCasts_S64_S1x64 (ix2 (0 : Fin 1) (i 1)) = b (ix1 (i 1)) :=
    shapeCast_a_1a_apply b _ 0 (i 1)
  unfold Tiles0.tile0 Cert.Sage.hidden
  dsimp only
  rw [hb, add_right_comm]

/-- (2)+(3) for the second layer. -/
theorem layer1_eq (a x : FVec Ideal S50000x64 .f32) (Wl Wr : FVec Ideal S2x64 .f32) (b : FVec Ideal S2 .f32) :
    Tiles1.tile1 a x Wl Wr (shapeCast S1x2 b shapeCasts_S2_S1x2) = Cert.Sage.output a x Wl Wr (fun e => b (ix1 e)) := by
  funext i
  have hb : shapeCast S1x2 b shapeCasts_S2_S1x2 (ix2 (0 : Fin 1) (i 1)) = b (ix1 (i 1)) :=
    shapeCast_a_1a_apply b _ 0 (i 1)
  unfold Tiles1.tile1 Cert.Sage.output
  dsimp only
  rw [hb, add_right_comm]

variable (m : (ℓ : Loc nD τ sig) → Buf (Elt Ideal) ℓ) (ρ : Dev nD → PrngReg)

/-- The first region's output is the reference's hidden-activation stage of the kernel's arguments. -/
theorem hidden_eq (c : Dev nD) :
    V2 m ρ c main_v26 = Cert.ReferenceIdeal.Read.val_main_v31 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  have h := (W2_arr m ρ c 5).trans (Tiles0.final (V1 m ρ) c)
  rw [V1_mean m ρ c, V1_arg0 m ρ c, V1_arg2 m ρ c, V1_arg3 m ρ c, V1_bias m ρ c, mean_eq, layer0_eq] at h
  rw [Cert.ReferenceIdeal.Layers.hidden_eq]
  exact h

/-- THE RESULT: the last boundary's contents at the result buffer are the reference's final stage of the kernel's arguments. -/
theorem result_eq (c : Dev nD) :
    W4 m ρ c (Proc.devRef .tc main_v40) = Cert.ReferenceIdeal.Read.val_main_v58 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  have h := (W4_arr m ρ c 5).trans (Tiles1.final (V3 m ρ) c)
  rw [V3_mean m ρ c, V3_root m ρ c, V3_arg5 m ρ c, V3_arg6 m ρ c, V3_bias m ρ c, hidden_eq m ρ c, mean_eq, layer1_eq] at h
  rw [Cert.ReferenceIdeal.Layers.output_eq, mean_again]
  exact h

end Cert.Bridge

end
-- ==== Proof.lean ====
/-
  A two-layer mean-aggregating graph network over 50000 nodes and 800000 directed edges, against its plain reference,
  on the extended reals.

  Each layer takes node features h, gathers the rows of h at the edges' sources, sums them at the edges' destinations
  (a scatter-add), scales node by node by the in-degree clamped below by one, and applies a dense map
      mean · Wlᵀ + b + h · Wrᵀ
  (the first layer followed by max with 0). The kernel program does the irregular part on the host and each dense map
  in a pipelined region over ten tiles of 5000 nodes; it differs from the reference in three ways, none of which
  changes a value on the extended reals:
    · it multiplies the aggregate by the reciprocal 1 / max(deg, 1) where the reference divides by max(deg, 1) — the
      divisor is at least one, so never zero, and off zero the quotient IS the product with the inverse, for every
      extended-real numerator (no finiteness is used, and the precondition is never opened);
    · it adds the bias last, (l + r) + b, where the reference adds it in the middle, (l + b) + r — addition of extended
      reals is commutative and associative;
    · it feeds the matrix unit through a shorter float format and tiles the rows — format changes are the identity
      here, and the ten tiles cover every row exactly once.
  The gather and the scatter-add are the same operations of the same operands on both sides and are never opened.

  The three frame claims: the two kernel programs' frames are the generated ones; the reference's is its generated run
  with the result dropped. The idealization rewrote nothing, so `preserves` is trivial. For `algebraic` the common
  result is the reference's last stage read as a function of the kernel's arguments.
-/
import proofs.«117466_j16965120819650_1_alg».proof.Defs
import proofs.«117466_j16965120819650_1_alg».proof.Proof.Gen.Kernel
import proofs.«117466_j16965120819650_1_alg».proof.Proof.Gen.Kernel.Frame
import proofs.«117466_j16965120819650_1_alg».proof.Proof.Gen.KernelIdeal
import proofs.«117466_j16965120819650_1_alg».proof.Proof.Gen.KernelIdeal.Frame
import proofs.«117466_j16965120819650_1_alg».proof.Proof.Gen.ReferenceIdeal
import proofs.«117466_j16965120819650_1_alg».proof.Proof.Gen.ReferenceIdeal.Run
import proofs.«117466_j16965120819650_1_alg».proof.Proof.Gen.ReferenceIdeal.Read
import proofs.«117466_j16965120819650_1_alg».proof.Proof.Gen.Pre_finite_inputs
import proofs.«117466_j16965120819650_1_alg».proof.Proof.KernelRun
import proofs.«117466_j16965120819650_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's last stage of the (agreeing) arguments in their result buffers. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.Bridge.result_eq m ρ c), (h c).2⟩)
      (Cert.KernelIdeal.Whole.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
